-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32768 : Shape := ⟨2, ![32, 32768]⟩
abbrev S128x32x32768 : Shape := ⟨3, ![128, 32, 32768]⟩
abbrev S_ : Shape := ⟨0, ![]⟩

class Facts : Prop where
  bcast_S_S32x32768 : S_.BroadcastsInDim S32x32768 (![] : Fin 0 → Fin S32x32768.rank)
  reducesTo_S32x32768_S_d0_1 : S32x32768.ReducesTo [0, 1] S_
  h_S_ : 0 < S_.numel
  bcast_S_S128x32x32768 : S_.BroadcastsInDim S128x32x32768 (![] : Fin 0 → Fin S128x32x32768.rank)
  reducesTo_S128x32x32768_S_d0_1_2 : S128x32x32768.ReducesTo [0, 1, 2] S_

variable [Facts]

def fn {F : FTy → Type} [FloatOps F] (main_arg0 : FVec F S32x32768 .f32) (main_arg1 : FVec F S128x32x32768 .f32) : IVec S_ 1 :=
  let main_v0 : FVec F S32x32768 .f32 := Host.absf main_arg0
  let main_cst : FVec F S_ .f32 := constant S_ .f32 0x7F800000#32
  let main_v1 : FVec F S32x32768 .f32 := broadcastInDim S32x32768 ![] bcast_S_S32x32768 main_cst
  let main_v2 : IVec S32x32768 1 := cmpf .olt main_v0 main_v1
  let main_c : IVec S_ 1 := constantI S_ 1 1#1
  let main_v3 : IVec S_ 1 := (fun x v => Host.reduce IntOp.andi x v reducesTo_S32x32768_S_d0_1 h_S_) main_v2 main_c
  let main_v4 : FVec F S128x32x32768 .f32 := Host.absf main_arg1
  let main_cst_0 : FVec F S_ .f32 := constant S_ .f32 0x7F800000#32
  let main_v5 : FVec F S128x32x32768 .f32 := broadcastInDim S128x32x32768 ![] bcast_S_S128x32x32768 main_cst_0
  let main_v6 : IVec S128x32x32768 1 := cmpf .olt main_v4 main_v5
  let main_c_1 : IVec S_ 1 := constantI S_ 1 1#1
  let main_v7 : IVec S_ 1 := (fun x v => Host.reduce IntOp.andi x v reducesTo_S128x32x32768_S_d0_1_2 h_S_) main_v6 main_c_1
  let main_v8 : IVec S_ 1 := andi main_v3 main_v7
  main_v8
-- ==== Kernel.lean ====
abbrev S32x32768 : Shape := ⟨2, ![32, 32768]⟩
abbrev S128x32x32768 : Shape := ⟨3, ![128, 32, 32768]⟩
abbrev S32x1024 : Shape := ⟨2, ![32, 1024]⟩
abbrev S128x32x1024 : Shape := ⟨3, ![128, 32, 1024]⟩
abbrev S1x32x1024 : Shape := ⟨3, ![1, 32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32x32768, .f32⟩
  | .hbm, ⟨1, _⟩ => ⟨S128x32x32768, .f32⟩
  | .hbm, ⟨2, _⟩ => ⟨S32x32768, .f32⟩
  | .local _ .vmem, ⟨0, _⟩ => ⟨S32x1024, .f32⟩
  | .local _ .vmem, ⟨1, _⟩ => ⟨S32x1024, .f32⟩
  | .local _ .vmem, ⟨2, _⟩ => ⟨S128x32x1024, .f32⟩
  | .local _ .vmem, ⟨3, _⟩ => ⟨S128x32x1024, .f32⟩
  | .local _ .vmem, ⟨4, _⟩ => ⟨S32x1024, .f32⟩
  | .local _ .vmem, ⟨5, _⟩ => ⟨S32x1024, .f32⟩
  | _, _ => ⟨S32x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x1024_S32x1024_0_0 : ∀ a, (![0, 0] : Fin 2 → Nat) a + S32x1024.size a ≤ S32x1024.size a
  h_S32x1024 : 0 < S32x1024.numel
  inb_S128x32x1024_S128x32x1024_0_0_0 : ∀ a, (![0, 0, 0] : Fin 3 → Nat) a + S128x32x1024.size a ≤ S128x32x1024.size a
  h_S128x32x1024 : 0 < S128x32x1024.numel
  shapeCasts_S32x1024_S1x32x1024 : S32x1024.ShapeCasts S1x32x1024
  broadcasts_S1x32x1024_S128x32x1024 : S1x32x1024.Broadcasts S128x32x1024
  reduces_S128x32x1024_S32x1024 : S128x32x1024.Reduces [0] S32x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x32768.size a
  hwx0_0 : ∀ i : grid0.Coords, EltTy.bits .f32 = 32 ∨ (Rect.block (s := S32x32768) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x1024.size a ≤ S128x32x32768.size a
  hwx0_1 : ∀ i : grid0.Coords, EltTy.bits .f32 = 32 ∨ (Rect.block (s := S128x32x32768) S128x32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x32768.size a
  hwx0_2 : ∀ i : grid0.Coords, EltTy.bits .f32 = 32 ∨ (Rect.block (s := S32x32768) S32x1024.size (cc0_transform_2 i) (hinb0_2 i)).WholeWords (EltTy.packing .f32)

variable [Facts₀]

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x32768 : Shape := ⟨2, ![32, 32768]⟩
abbrev S128x32x32768 : Shape := ⟨3, ![128, 32, 32768]⟩
abbrev S1x32x32768 : Shape := ⟨3, ![1, 32, 32768]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32x32768, .f32⟩
  | .hbm, ⟨1, _⟩ => ⟨S128x32x32768, .f32⟩
  | .hbm, ⟨2, _⟩ => ⟨S1x32x32768, .f32⟩
  | .hbm, ⟨3, _⟩ => ⟨S128x32x32768, .f32⟩
  | .hbm, ⟨4, _⟩ => ⟨S128x32x32768, .f32⟩
  | .hbm, ⟨5, _⟩ => ⟨S_, .f32⟩
  | .hbm, ⟨6, _⟩ => ⟨S128x32x32768, .f32⟩
  | .hbm, ⟨7, _⟩ => ⟨S128x32x32768, .i1⟩
  | .hbm, ⟨8, _⟩ => ⟨S_, .f32⟩
  | .hbm, ⟨9, _⟩ => ⟨S_, .f32⟩
  | .hbm, ⟨10, _⟩ => ⟨S128x32x32768, .f32⟩
  | .hbm, ⟨11, _⟩ => ⟨S128x32x32768, .f32⟩
  | .hbm, ⟨12, _⟩ => ⟨S128x32x32768, .f32⟩
  | .hbm, ⟨13, _⟩ => ⟨S128x32x32768, .f32⟩
  | .hbm, ⟨14, _⟩ => ⟨S_, .f32⟩
  | .hbm, ⟨15, _⟩ => ⟨S32x32768, .f32⟩
  | .hbm, ⟨16, _⟩ => ⟨S_, .f32⟩
  | .hbm, ⟨17, _⟩ => ⟨S32x32768, .f32⟩
  | .hbm, ⟨18, _⟩ => ⟨S32x32768, .f32⟩
  | _, _ => ⟨S32x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S32x32768_S1x32x32768_1_2 : S32x32768.BroadcastsInDim S1x32x32768 (![1, 2] : Fin 2 → Fin S1x32x32768.rank)
  bcast_S1x32x32768_S128x32x32768_0_1_2 : S1x32x32768.BroadcastsInDim S128x32x32768 (![0, 1, 2] : Fin 3 → Fin S128x32x32768.rank)
  bcast_S_S128x32x32768 : S_.BroadcastsInDim S128x32x32768 (![] : Fin 0 → Fin S128x32x32768.rank)
  reducesTo_S128x32x32768_S32x32768_d0 : S128x32x32768.ReducesTo [0] S32x32768
  h_S_ : 0 < S_.numel
  bcast_S_S32x32768 : S_.BroadcastsInDim S32x32768 (![] : Fin 0 → Fin S32x32768.rank)

variable [Facts₀]

class Facts : Prop extends Facts₀ where

variable [Facts]
-- ==== Proof.CrossingFraction.lean ====
/-
  The function both programs compute. For an array `x` of shape [32, 32768] and `n` of shape [128, 32, 32768], the
  result at `(b, d)` is the fraction of the 128 samples `t` whose sum `x[b, d] + n[t, b, d]` lies strictly above the
  threshold: each sample contributes the word for one or the word for zero (`hit`), the 128 contributions are added,
  and the total is divided by the word for 128 (`mean128`). Every constant is kept as its binary word: the two programs
  spell the same four words, so none of them is ever evaluated — except the zero word the host's sum starts from, and
  `0 + s = s` on the extended reals is the one law that joins the two sides (`zero_word_add`). No entry needs to be
  finite for any of this: nothing is distributed, cancelled or reordered.
-/
import Idealize.ShloMosaic.PureOps.Ideal
import Idealize.ShloMosaic.PureOps.Ideal.Laws
import Idealize.ShloMosaic.Lib.ValueIdx

noncomputable section

namespace Crossing

open Idealize.ShloMosaic Idealize.ShloMosaic.ValueIdx

/-- One sample's contribution: one if `a + e` is strictly above the threshold word, zero otherwise. -/
def hit (a e : Ideal .f32) : Ideal .f32 :=
  Scalar.select (FloatOps.cmpf .ogt (FloatOps.addf a e) (FloatOps.ofBits .f32 0x3E4CCCCD#32))
    (FloatOps.ofBits .f32 0x3F800000#32) (FloatOps.ofBits .f32 0x00000000#32)

/-- The 128 contributions added and divided by the word for 128. -/
def mean128 (f : Fin 128 → Ideal .f32) : Ideal .f32 :=
  FloatOps.divf (∑ k : Fin 128, f k) (FloatOps.ofBits .f32 0x43000000#32)

/-- The crossing fraction at the coordinates `(b, d)`: sample `k` reads `n` at `(k, b, d)`. -/
def fracAt (x : (⟨2, ![32, 32768]⟩ : Shape).Idx → Ideal .f32) (n : (⟨3, ![128, 32, 32768]⟩ : Shape).Idx → Ideal .f32)
    (b : Fin 32) (d : Fin 32768) : Ideal .f32 :=
  mean128 fun k => hit (x (ix2 b d)) (n (ix3 k b d))

/-- The crossing fraction as one function of the two whole arrays, index by index. -/
def frac (x : (⟨2, ![32, 32768]⟩ : Shape).Idx → Ideal .f32) (n : (⟨3, ![128, 32, 32768]⟩ : Shape).Idx → Ideal .f32) :
    (⟨2, ![32, 32768]⟩ : Shape).Idx → Ideal .f32 :=
  fun i => fracAt x n (i 0) (i 1)

theorem frac_ix2 (x : (⟨2, ![32, 32768]⟩ : Shape).Idx → Ideal .f32) (n : (⟨3, ![128, 32, 32768]⟩ : Shape).Idx → Ideal .f32)
    (b : Fin 32) (d : Fin 32768) : frac x n (ix2 b d) = fracAt x n b d := rfl

/-- A sum that starts from the zero word is the sum: the word denotes the extended real `0`. -/
theorem zero_word_add (s : Ideal .f32) : FloatOps.ofBits (F := Ideal) .f32 0x00000000#32 + s = s := by
  rw [Ideal.ofBits_def, Ideal.ofBits_zero_f32]
  exact zero_add s

end Crossing

end
-- ==== Proof.KernelBlock.lean ====
/-
  What the kernel's body leaves in its output block, at explicit coordinates. The body adds the [32, 1024] block of `x`,
  cast to [1, 32, 1024] and broadcast over the 128 samples, to the [128, 32, 1024] block of the noise, compares with the
  threshold, selects one or zero, sums over the sample axis and divides by 128. At `(b, d)` the broadcast copy reads the
  `x` block at `(b, d)` whatever the sample, the sum over the dropped axis reads the selected values at `(k, b, d)`, and
  so the block entry is the mean of the 128 contributions of `x[b, d]` and `noise[k, b, d]`.
-/
import proofs.«115675_j5085241278853_1_alg».proof.Proof.KernelIdealValue
import proofs.«115675_j5085241278853_1_alg».proof.Proof.CrossingFraction
import Idealize.ShloMosaic.Lib.ValueLayout

noncomputable section

namespace Cert.KernelIdeal.Block

open Cert.KernelIdeal Cert.KernelIdeal.Gen Idealize.ShloMosaic Idealize.ShloMosaic.ValueIdx

theorem zeros2 : (![0, 0] : Fin 2 → Nat) = fun _ => 0 := funext fun a => by fin_cases a <;> rfl
theorem zeros3 : (![0, 0, 0] : Fin 3 → Nat) = fun _ => 0 := funext fun a => by fin_cases a <;> rfl

/-- The `x` block cast to [1, 32, 1024] and broadcast over the samples reads, at `(k, b, d)`, the block at `(b, d)`. -/
theorem spread_at (P0 : FVec Ideal S32x1024 .f32) (k : Fin 128) (b : Fin 32) (d : Fin 1024) :
    broadcastTo S128x32x1024 (shapeCast S1x32x1024 P0 shapeCasts_S32x1024_S1x32x1024) broadcasts_S1x32x1024_S128x32x1024 (ix3 k b d)
      = P0 (ix2 b d) := by
  refine (broadcastTo_apply _ broadcasts_S1x32x1024_S128x32x1024 (ix3 k b d) (ix3 (0 : Fin 1) b d) fun a => ?_).trans ?_
  · match a with
    | ⟨0, _⟩ => rfl
    | ⟨1, _⟩ => show b.val = if (32 : Nat) = 1 then 0 else b.val; rw [if_neg (by decide)]
    | ⟨2, _⟩ => show d.val = if (1024 : Nat) = 1 then 0 else d.val; rw [if_neg (by decide)]
  · exact shapeCast_ab_1ab_apply P0 shapeCasts_S32x1024_S1x32x1024 0 b d

/-- The block the body's one store leaves (the generated `E2`), at `(b, d)`: the mean of the 128 contributions. -/
theorem block_at (P0 : FVec Ideal S32x1024 .f32) (P1 : FVec Ideal S128x32x1024 .f32) (b : Fin 32) (d : Fin 1024) :
    ValueP.E2 (F := Ideal) P0 P1 (ix2 b d) = Crossing.mean128 fun k => Crossing.hit (P0 (ix2 b d)) (P1 (ix3 k b d)) := by
  unfold Crossing.mean128
  refine congrArg (fun s => FloatOps.divf s (FloatOps.ofBits (F := Ideal) .f32 0x43000000#32)) ?_
  refine (Ideal.multiReduction_add_single _ 0x00000000#32 reduces_S128x32x1024_S32x1024 (.inl rfl) rfl
    (ValueP.ix2_0 (ix2 b d))).trans ?_
  show ∑ k : Fin 128, _ = ∑ k : Fin 128, _
  refine Finset.sum_congr rfl fun k _ => ?_
  have eJ : reduces_S128x32x1024_S32x1024.lift (ValueP.ix2_0 (ix2 b d)) k = ix3 k b d :=
    funext fun a => Fin.ext (by match a with | ⟨0, _⟩ => rfl | ⟨1, _⟩ => rfl | ⟨2, _⟩ => rfl)
  rw [eJ]
  unfold Crossing.hit
  rw [← spread_at P0 k b d]
  rfl

/-- The body's output buffer, as the frame names it, at `(b, d)`: its one store through the whole-block rectangle leaves
    the payload, and the two loads through whole-block rectangles read the two input blocks. -/
theorem out_at (x0 : FVec Ideal S32x1024 .f32) (x1 : FVec Ideal S128x32x1024 .f32) (b : Fin 32) (d : Fin 1024) :
    out0_2 (F := Ideal) x0 x1 (ix2 b d) = Crossing.mean128 fun k => Crossing.hit (x0 (ix2 b d)) (x1 (ix3 k b d)) := by
  unfold out0_2
  rw [View.ld_unit_zero (S := S32x1024) zeros2, View.ld_unit_zero (S := S128x32x1024) zeros3, ValueP.canon2_eq]
  exact block_at x0 x1 b d

end Cert.KernelIdeal.Block

end
-- ==== Proof.KernelFraction.lean ====
/-
  The kernel's output array is the crossing fraction of its two argument arrays. The grid has 32 points; point `t` works
  on columns `1024·t … 1024·t + 1023`: its `x` block and its output block are rows 0–31 of those columns, its noise block
  all 128 samples of them. So the block entry `(b, d)` of point `t` reads `x` at `(b, 1024·t + d)` and the noise at
  `(k, b, 1024·t + d)`, which is exactly where the crossing fraction at the array index `(b, 1024·t + d)` reads them:
  what point `t` writes back is its block of the fraction. Column `j` lies in the block of point `j / 1024`, so the 32
  blocks cover the array, and the array ends holding the fraction everywhere.
-/
import proofs.«115675_j5085241278853_1_alg».proof.Proof.KernelBlock
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three index maps over the grid: every window sits at block row 0 (and the noise at sample block 0), and moves
    along the columns with the point's own number. -/
theorem idx_facts : ∀ t : Fin cfg0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val :=
  (by decide +kernel : ∀ t : Fin grid0.N, _)

/-- Column `d` of point `t`'s blocks is column `1024·t + d` of the arrays. -/
abbrev col (t : Fin cfg0.N) (d : Fin 1024) : Fin 32768 :=
  ⟨t.val * 1024 + d.val, by have ht : t.val < 32 := t.isLt; have hd := d.isLt; omega⟩

/-- The `x` block of point `t` at `(b, d)` is `x` at `(b, 1024·t + d)`. -/
theorem read_x (c : Dev nD) (t : Fin cfg0.N) (b : Fin 32) (d : Fin 1024) :
    iblk m c 0 t (ix2 b d) = V m c main_arg0 (ix2 b (col t d)) := by
  obtain ⟨e0, e1, -⟩ := idx_facts t
  show V m c main_arg0 (((cfg0.win 0).blk t).view.emb (ix2 b d)) = V m c main_arg0 (ix2 b (col t d))
  refine congrArg (V m c main_arg0) (funext fun a => Fin.ext ?_)
  match a with
  | ⟨0, _⟩ => show win0_0.index t (0 : Fin 2) * 32 + 1 * b.val = b.val; omega
  | ⟨1, _⟩ => show win0_0.index t (1 : Fin 2) * 1024 + 1 * d.val = t.val * 1024 + d.val; omega

/-- The noise block of point `t` at `(k, b, d)` is the noise at `(k, b, 1024·t + d)`. -/
theorem read_noise (c : Dev nD) (t : Fin cfg0.N) (k : Fin 128) (b : Fin 32) (d : Fin 1024) :
    iblk m c 1 t (ix3 k b d) = V m c main_arg1 (ix3 k b (col t d)) := by
  obtain ⟨-, -, e2, e3, e4, -⟩ := idx_facts t
  show V m c main_arg1 (((cfg0.win 1).blk t).view.emb (ix3 k b d)) = V m c main_arg1 (ix3 k b (col t d))
  refine congrArg (V m c main_arg1) (funext fun a => Fin.ext ?_)
  match a with
  | ⟨0, _⟩ => show win0_1.index t (0 : Fin 3) * 128 + 1 * k.val = k.val; omega
  | ⟨1, _⟩ => show win0_1.index t (1 : Fin 3) * 32 + 1 * b.val = b.val; omega
  | ⟨2, _⟩ => show win0_1.index t (2 : Fin 3) * 1024 + 1 * d.val = t.val * 1024 + d.val; omega

/-- The output block of point `t` at `(b, d)` sits at the array index `(b, 1024·t + d)`. -/
theorem out_index (t : Fin cfg0.N) (b : Fin 32) (d : Fin 1024) :
    ((cfg0.win 2).blk t).view.emb (ix2 b d) = ix2 b (col t d) := by
  obtain ⟨-, -, -, -, -, e5, e6⟩ := idx_facts t
  refine funext fun a => Fin.ext ?_
  match a with
  | ⟨0, _⟩ => show win0_2.index t (0 : Fin 2) * 32 + 1 * b.val = b.val; omega
  | ⟨1, _⟩ => show win0_2.index t (1 : Fin 2) * 1024 + 1 * d.val = t.val * 1024 + d.val; omega

/-- WHAT POINT `t` WRITES BACK is its block of the crossing fraction of the argument arrays. -/
theorem flushed_eq (c : Dev nD) (t : Fin cfg0.N) :
    (dats m 0 c).flushed 2 t
      = ((cfg0.win 2).blk t).view.read (Elt Ideal) (Crossing.frac (V m c main_arg0) (V m c main_arg1)) := by
  rw [ValueP.flushed2]
  funext j
  obtain ⟨b, d, rfl⟩ : ∃ (b : Fin 32) (d : Fin 1024), j = ix2 b d := ⟨j 0, j 1, eq_ix2 j⟩
  show out0_2 (iblk m c 0 t) (iblk m c 1 t) (ix2 b d)
    = Crossing.frac (V m c main_arg0) (V m c main_arg1) (((cfg0.win 2).blk t).view.emb (ix2 b d))
  rw [out_index t b d, Crossing.frac_ix2]
  refine (Block.out_at (iblk m c 0 t) (iblk m c 1 t) b d).trans ?_
  unfold Crossing.fracAt
  refine congrArg Crossing.mean128 (funext fun k => ?_)
  rw [read_x m c t b d, read_noise m c t k b d]

/-- An array index is in point `t`'s output block iff each coordinate is in the block's range on its axis. -/
theorem mem_blk (t : Fin cfg0.N) (i : S32x32768.Idx) :
    i ∈ ((cfg0.win 2).blk t).view.set ↔ ∀ a : Fin 2, win0_2.index t a * S32x1024.size a ≤ (i a).val
      ∧ (i a).val < win0_2.index t a * S32x1024.size a + S32x1024.size a := by
  show i ∈ ((View.whole main_v0).slice (win0_2.rect t)).set ↔ _
  rw [View.set_slice_whole, Rect.mem_set_unit]
  exact Iff.rfl

/-- The 32 output blocks cover the array: column `j` is in the block of point `j / 1024`. -/
theorem cover (i : S32x32768.Idx) :
    ∃ t : Fin cfg0.N, (cfg0.win 2).flush t = true ∧ i ∈ ((cfg0.win 2).blk t).view.set := by
  have hi0 : (i 0).val < 32 := (i 0).isLt
  have hi1 : (i 1).val < 32768 := (i 1).isLt
  have hq : (i 1).val / 1024 < 32 := by omega
  obtain ⟨-, -, -, -, -, e5, e6⟩ := idx_facts ⟨(i 1).val / 1024, hq⟩
  have e6' : win0_2.index ⟨(i 1).val / 1024, hq⟩ (1 : Fin 2) = (i 1).val / 1024 := e6
  refine ⟨⟨(i 1).val / 1024, hq⟩, flush0_2 _, ?_⟩
  rw [mem_blk]
  intro a
  match a with
  | ⟨0, _⟩ =>
    show win0_2.index ⟨(i 1).val / 1024, hq⟩ (0 : Fin 2) * 32 ≤ (i 0).val
      ∧ (i 0).val < win0_2.index ⟨(i 1).val / 1024, hq⟩ (0 : Fin 2) * 32 + 32
    omega
  | ⟨1, _⟩ =>
    show win0_2.index ⟨(i 1).val / 1024, hq⟩ (1 : Fin 2) * 1024 ≤ (i 1).val
      ∧ (i 1).val < win0_2.index ⟨(i 1).val / 1024, hq⟩ (1 : Fin 2) * 1024 + 1024
    omega

/-- THE ARRAY after the run is the crossing fraction of the two arguments as launched. -/
theorem final (c : Dev nD) :
    (dats m 0 c).arrAt 2 cfg0.N
      = Crossing.frac (m ((c : Thread nD τ).loc main_arg0)) (m ((c : Thread nD τ).loc main_arg1)) :=
  (dats m 0 c).arrAt_eq_of_cover 2 (Crossing.frac (V m c main_arg0) (V m c main_arg1))
    (fun t _ => flushed_eq m c t) cover

/-- The kernel's run: it terminates with its result array at the crossing fraction of its arguments, which are unchanged. -/
theorem run : θ_run defs (onTc (τ := τ) (main (F := Ideal))) ⟨m, fun _ => 0, ρ⟩ fun r => ∀ c : Dev nD,
      r.2.mem ((c : Thread nD τ).loc main_v0)
        = Crossing.frac (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (ValueP.run_blocks m ρ)

end Cert.KernelIdeal.Whole

end
-- ==== Proof.ReferenceFraction.lean ====
/-
  The reference computes the crossing fraction. Read one operation at a time, its result at `(b, d)` is the quotient by
  the word for 128 of the zero word plus the sum over the 128 samples `k` of the selected constant at `(k, b, d)`; there
  the two broadcasts of `x` read `x` at `(b, d)`, the noise is read at `(k, b, d)`, and the broadcast constants read their
  words. The zero word the sum starts from adds nothing.
-/
import proofs.«115675_j5085241278853_1_alg».proof.Proof.Gen.ReferenceIdeal.Read
import proofs.«115675_j5085241278853_1_alg».proof.Proof.CrossingFraction

noncomputable section

namespace Cert.ReferenceIdeal.RefValue

open Cert.ReferenceIdeal Cert.ReferenceIdeal.Read Idealize.ShloMosaic Idealize.ShloMosaic.ValueIdx

/-- Sample `k`'s selected constant at `(k, b, d)` is its contribution: `x` broadcast twice is read at `(b, d)`. -/
theorem sample_eq (x0 : (⟨S32x32768, .f32⟩ : BufTy).Contents (Elt Ideal)) (x1 : (⟨S128x32x32768, .f32⟩ : BufTy).Contents (Elt Ideal))
    (b : Fin 32) (d : Fin 32768) (k : Fin 128) :
    val_main_v6 (F := Ideal) x0 x1 (idx_main_v7 (ix2 b d) k) = Crossing.hit (x0 (ix2 b d)) (x1 (ix3 k b d)) := by
  have e1 : idx_main_v7 (ix2 b d) k = ix3 k b d :=
    funext fun a => Fin.ext (by match a with | ⟨0, _⟩ => rfl | ⟨1, _⟩ => rfl | ⟨2, _⟩ => rfl)
  have e0 : idx_main_v0 (idx_main_v1 (ix3 k b d)) = ix2 b d :=
    funext fun a => Fin.ext (by match a with | ⟨0, _⟩ => rfl | ⟨1, _⟩ => rfl)
  rw [e1, val_main_v6_apply, val_main_v5_apply, val_main_v4_apply, val_main_v2_apply, val_main_v1_apply, val_main_v0_apply,
    val_main_v3_apply, val_main_cst_apply, val_main_call0_v0_apply, val_main_cst_0_apply, val_main_call0_v1_apply,
    val_main_cst_1_apply, e0]
  rfl

/-- The reference's result is the crossing fraction of its two arguments. -/
theorem reference_eq (x0 : (⟨S32x32768, .f32⟩ : BufTy).Contents (Elt Ideal)) (x1 : (⟨S128x32x32768, .f32⟩ : BufTy).Contents (Elt Ideal)) :
    val_main_v9 (F := Ideal) x0 x1 = Crossing.frac x0 x1 := by
  funext i
  obtain ⟨b, d, rfl⟩ : ∃ (b : Fin 32) (d : Fin 32768), i = ix2 b d := ⟨i 0, i 1, eq_ix2 i⟩
  have hs : ∑ k : Fin 128, val_main_v6 (F := Ideal) x0 x1 (idx_main_v7 (ix2 b d) k)
      = ∑ k : Fin 128, Crossing.hit (x0 (ix2 b d)) (x1 (ix3 k b d)) :=
    Finset.sum_congr rfl fun k _ => sample_eq x0 x1 b d k
  rw [val_main_v9_apply, val_main_v7_apply, val_main_v8_apply, val_main_cst_3_apply, val_main_cst_2_apply, hs,
    Crossing.zero_word_add, Crossing.frac_ix2]
  rfl

end Cert.ReferenceIdeal.RefValue

end
-- ==== Proof.lean ====
/-
  The five claims for the crossing-fraction kernel against its reference.

  Both programs take `x` of shape [32, 32768] and a noise array of shape [128, 32, 32768] and return, at `(b, d)`, the
  fraction of the 128 samples `t` with `x[b, d] + noise[t, b, d]` strictly above the threshold: one or zero per sample,
  added, divided by 128 (Proof/CrossingFraction.lean). The kernel does this on 32 column blocks of width 1024, summing over
  the sample axis inside each block; the reference does it on the whole arrays with a host sum that starts from the zero
  word. On the extended reals the two differ only by that `0 +`, so the results are equal index by index, whatever the
  entries are: the precondition is not used by the value claim.

  The kernel's array is read off its run block by block (Proof/KernelBlock.lean: one block entry; Proof/KernelFraction.lean:
  each point writes its block of the fraction, and the blocks cover the array); the reference's result is read one operation
  at a time (Proof/ReferenceFraction.lean). The three frames are the programs' runs with the results dropped, and the
  idealization rewrote no operation, so there is nothing to preserve.
-/
import proofs.«115675_j5085241278853_1_alg».proof.Defs
import proofs.«115675_j5085241278853_1_alg».proof.Proof.Gen.Kernel
import proofs.«115675_j5085241278853_1_alg».proof.Proof.Gen.Kernel.Skeleton
import proofs.«115675_j5085241278853_1_alg».proof.Proof.Gen.Kernel.Launch
import proofs.«115675_j5085241278853_1_alg».proof.Proof.Gen.Kernel.Points
import proofs.«115675_j5085241278853_1_alg».proof.Proof.Gen.Kernel.Frame
import proofs.«115675_j5085241278853_1_alg».proof.Proof.Gen.KernelIdeal
import proofs.«115675_j5085241278853_1_alg».proof.Proof.Gen.KernelIdeal.Skeleton
import proofs.«115675_j5085241278853_1_alg».proof.Proof.Gen.KernelIdeal.Launch
import proofs.«115675_j5085241278853_1_alg».proof.Proof.Gen.KernelIdeal.Points
import proofs.«115675_j5085241278853_1_alg».proof.Proof.Gen.KernelIdeal.Frame
import proofs.«115675_j5085241278853_1_alg».proof.Proof.Gen.ReferenceIdeal
import proofs.«115675_j5085241278853_1_alg».proof.Proof.Gen.Pre_finite_inputs
import proofs.«115675_j5085241278853_1_alg».proof.Proof.KernelIdealValue
import proofs.«115675_j5085241278853_1_alg».proof.Proof.Gen.ReferenceIdeal.Run
import proofs.«115675_j5085241278853_1_alg».proof.Proof.Gen.ReferenceIdeal.Read
import proofs.«115675_j5085241278853_1_alg».proof.Proof.KernelFraction
import proofs.«115675_j5085241278853_1_alg».proof.Proof.ReferenceFraction
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the two arguments, the kernel's result array and the reference's
    result are both the crossing fraction of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
